-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S384x128 : Shape := ⟨2, ![384, 128]⟩
abbrev S384 : Shape := ⟨1, ![384]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_arg5 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S100000x128 .f32) (main_arg1 : FVec F S200000x128 .f32) (main_arg2 : FVec F S384x128 .f32) (main_arg3 : FVec F S384x128 .f32) (main_arg4 : FVec F S384 .f32) (main_arg5 : FVec F S384 .f32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_v13 main_v16
-- ==== Kernel.lean ====
abbrev S100000x128 : Shape := ⟨2, ![100000, 128]⟩
abbrev S200000x128 : Shape := ⟨2, ![200000, 128]⟩
abbrev S384x128 : Shape := ⟨2, ![384, 128]⟩
abbrev S384 : Shape := ⟨1, ![384]⟩
abbrev S100000 : Shape := ⟨1, ![100000]⟩
abbrev S_ : Shape := ⟨0, ![]⟩
abbrev S100000x1 : Shape := ⟨2, ![100000, 1]⟩
abbrev S128x384 : Shape := ⟨2, ![128, 384]⟩
abbrev S1x384 : Shape := ⟨2, ![1, 384]⟩
abbrev S2000x128 : Shape := ⟨2, ![2000, 128]⟩
abbrev S2000x384 : Shape := ⟨2, ![2000, 384]⟩

abbrev nBuf : Space → Nat
  | .hbm => 32
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x128, .f32⟩
  | .hbm, ⟨16, _⟩ => ⟨S128x384, .f32⟩
  | .hbm, ⟨17, _⟩ => ⟨S128x384, .f32⟩
  | .hbm, ⟨18, _⟩ => ⟨S1x384, .f32⟩
  | .hbm, ⟨19, _⟩ => ⟨S1x384, .f32⟩
  | .hbm, ⟨20, _⟩ => ⟨S100000x128, .f32⟩
  | .hbm, ⟨21, _⟩ => ⟨S_, .f32⟩
  | .hbm, ⟨22, _⟩ => ⟨S200000x128, .f32⟩
  | .hbm, ⟨23, _⟩ => ⟨S_, .i32⟩
  | .hbm, ⟨24, _⟩ => ⟨S100000, .i32⟩
  | .hbm, ⟨25, _⟩ => ⟨S100000, .i1⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000, .i32⟩
  | .hbm, ⟨30, _⟩ => ⟨S100000x1, .i32⟩
  | .hbm, ⟨31, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S384x128_S128x384_1_0 : S384x128.Transposes [1, 0] S128x384
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  bcast_S_S200000x128 : S_.BroadcastsInDim S200000x128 (![] : Fin 0 → Fin S200000x128.rank)
  gather_S200000x128_S100000x1_S100000x128_1_0_n_n_0_1_1128_wf : GatherDims.WF S200000x128 S100000x1 S100000x128 [1] [0] [] [0] [] 1 ![1, 128]
  dot_S2000x128_S128x384_S2000x384_1_0_0_1_n_n_wf : DotDims.WF S2000x128 S128x384 S2000x384 [1] [0] [0] [1] [] []
  scatter_S200000x128_S100000x1_S100000x128_1_0_0_1_wf : ScatterDims.WF S200000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def scatter_S200000x128_S100000x1_S100000x128_1_0_0_1 : ScatterDims S200000x128 S100000x1 S100000x128 where
  updateWindowDims := [1]
  insertedWindowDims := [0]
  scatterDimsToOperandDims := [0]
  indexVectorDim := 1
  wf := scatter_S200000x128_S100000x1_S100000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S384x128 : Shape := ⟨2, ![384, 128]⟩
abbrev S384 : Shape := ⟨1, ![384]⟩
abbrev S100000 : Shape := ⟨1, ![100000]⟩
abbrev S_ : Shape := ⟨0, ![]⟩
abbrev S100000x1 : Shape := ⟨2, ![100000, 1]⟩
abbrev S128x384 : Shape := ⟨2, ![128, 384]⟩
abbrev S100000x384 : Shape := ⟨2, ![100000, 384]⟩
abbrev S1x384 : Shape := ⟨2, ![1, 384]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x128, .f32⟩
  | .hbm, ⟨16, _⟩ => ⟨S128x384, .f32⟩
  | .hbm, ⟨17, _⟩ => ⟨S100000x384, .f32⟩
  | .hbm, ⟨18, _⟩ => ⟨S1x384, .f32⟩
  | .hbm, ⟨19, _⟩ => ⟨S100000x384, .f32⟩
  | .hbm, ⟨20, _⟩ => ⟨S100000x384, .f32⟩
  | .hbm, ⟨21, _⟩ => ⟨S128x384, .f32⟩
  | .hbm, ⟨22, _⟩ => ⟨S100000x384, .f32⟩
  | .hbm, ⟨23, _⟩ => ⟨S1x384, .f32⟩
  | .hbm, ⟨24, _⟩ => ⟨S100000x384, .f32⟩
  | .hbm, ⟨25, _⟩ => ⟨S100000x384, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S200000x128, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S200000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  bcast_S_S200000x128 : S_.BroadcastsInDim S200000x128 (![] : Fin 0 → Fin S200000x128.rank)
  gather_S200000x128_S100000x1_S100000x128_1_0_n_n_0_1_1128_wf : GatherDims.WF S200000x128 S100000x1 S100000x128 [1] [0] [] [0] [] 1 ![1, 128]
  dot_S100000x128_S128x384_S100000x384_1_0_0_1_n_n_wf : DotDims.WF S100000x128 S128x384 S100000x384 [1] [0] [0] [1] [] []
  scatter_S200000x128_S100000x1_S100000x128_1_0_0_1_wf : ScatterDims.WF S200000x128 S100000x1 S100000x128 [1] [0] [0] 1

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S200000x128_S100000x1_S100000x128_1_0_0_1 : ScatterDims S200000x128 S100000x1 S100000x128 where
  updateWindowDims := [1]
  insertedWindowDims := [0]
  scatterDimsToOperandDims := [0]
  indexVectorDim := 1
  wf := scatter_S200000x128_S100000x1_S100000x128_1_0_0_1_wf

class Facts : Prop extends Facts₀ where

variable [Facts]
-- ==== Proof.GruCell.lean ====
/-
  The GRU cell, stated once on the extended reals, for one row of messages against one row of state.

  For a message row `x` and a state row `h` (128 features each), weight matrices `Wi`, `Wh` (384 rows of 128: the reset,
  update and candidate gates stacked) and biases `bi`, `bh` (384 entries):
      gi j = Σ_k x k · Wi j k + bi j          gh j = Σ_k h k · Wh j k + bh j
      r = σ(gi q + gh q)     z = σ(gi (128+q) + gh (128+q))     n = tanh(gi (256+q) + r · gh (256+q))
      new h q = (1 − z) · n + z · h q
  with σ x = 1 / (1 + e^(−x)) on the extended reals (`Ideal.logistic`). No program is mentioned here: both programs of the
  certificate are shown to compute this function of their rows.
-/
import Idealize.ShloMosaic.PureOps.Ideal
import Idealize.ShloMosaic.Lib.ValueIdx
import Idealize.ShloMosaic.Lib.IdealHost

noncomputable section

open scoped BigOperators

namespace Cert.GruCell

open Idealize.ShloMosaic Idealize.ShloMosaic.ValueIdx

/-- The reset gate's column of feature `q` among the 384 stacked gate columns. -/
abbrev colR (q : Fin 128) : Fin 384 := ⟨q.val, by omega⟩
/-- The update gate's column of feature `q`. -/
abbrev colZ (q : Fin 128) : Fin 384 := ⟨128 + q.val, by omega⟩
/-- The candidate gate's column of feature `q`. -/
abbrev colN (q : Fin 128) : Fin 384 := ⟨256 + q.val, by omega⟩

/-- One gate pre-activation: the row against row `j` of the weight matrix, plus the bias. -/
def pre (xr : Fin 128 → EReal) (W : Fin 384 → Fin 128 → EReal) (b : Fin 384 → EReal) (j : Fin 384) : EReal :=
  (∑ k : Fin 128, xr k * W j k) + b j

/-- The reset gate. -/
def gateR (xr hr : Fin 128 → EReal) (Wi Wh : Fin 384 → Fin 128 → EReal) (bi bh : Fin 384 → EReal) (q : Fin 128) : EReal :=
  Ideal.logistic (pre xr Wi bi (colR q) + pre hr Wh bh (colR q))

/-- The update gate. -/
def gateZ (xr hr : Fin 128 → EReal) (Wi Wh : Fin 384 → Fin 128 → EReal) (bi bh : Fin 384 → EReal) (q : Fin 128) : EReal :=
  Ideal.logistic (pre xr Wi bi (colZ q) + pre hr Wh bh (colZ q))

/-- The candidate state. -/
def cand (xr hr : Fin 128 → EReal) (Wi Wh : Fin 384 → Fin 128 → EReal) (bi bh : Fin 384 → EReal) (q : Fin 128) : EReal :=
  Ideal.tanh (pre xr Wi bi (colN q) + gateR xr hr Wi Wh bi bh q * pre hr Wh bh (colN q))

/-- The new state's feature `q`: `(1 − z) · n + z · h`. -/
def cellRow (xr hr : Fin 128 → EReal) (Wi Wh : Fin 384 → Fin 128 → EReal) (bi bh : Fin 384 → EReal) (q : Fin 128) : EReal :=
  (1 - gateZ xr hr Wi Wh bi bh q) * cand xr hr Wi Wh bi bh q + gateZ xr hr Wi Wh bi bh q * hr q

/-- The cell over whole arrays: messages and gathered state [100000, 128], weights [384, 128], biases [384];
    entry `(p, q)` of the result is the cell of row `p`. -/
def cell (x h : (⟨2, ![100000, 128]⟩ : Shape).Idx → EReal) (Wi Wh : (⟨2, ![384, 128]⟩ : Shape).Idx → EReal)
    (bi bh : (⟨1, ![384]⟩ : Shape).Idx → EReal) : (⟨2, ![100000, 128]⟩ : Shape).Idx → EReal := fun i =>
  cellRow (fun k => x (ix2 (i 0) k)) (fun k => h (ix2 (i 0) k)) (fun j k => Wi (ix2 j k)) (fun j k => Wh (ix2 j k))
    (fun j => bi (ix1 j)) (fun j => bh (ix1 j)) (i 1)

/-- The logistic function spelled with the f32 literal one, as a host program spells it: `1 / (1 + e^(−x))`. -/
theorem logistic_eq_div (x : EReal) :
    Ideal.div (Ideal.ofBits .f32 0x3F800000#32) (Ideal.ofBits .f32 0x3F800000#32 + Ideal.exp (-x)) = Ideal.logistic x := by
  rw [Ideal.ofBits_one_f32]; rfl

end Cert.GruCell

end
-- ==== Proof.RefCell.lean ====
/-
  The reference program's update array — what its scatter writes into the memory — is the GRU cell of the
  message rows and the gathered state rows, entry by entry.

  Read one operation at a time: the two `dot_general`s against the transposed weights are the rows' products with
  the weight rows (entry `(p, j)` sums `x p k · W j k` over `k`), the biases are broadcast along the rows, the three
  column slices pick the reset, update and candidate gates, and jax's expansion of the logistic function,
  `1 / (1 + e^(−x))` with the f32 literal one, is the logistic function of the extended reals.
-/
import proofs.«106858_j19499151524025_2_alg».proof.Proof.Gen.ReferenceIdeal.Read
import proofs.«106858_j19499151524025_2_alg».proof.Proof.GruCell

noncomputable section

open scoped BigOperators

namespace Cert.ReferenceIdeal.Cell

open Cert.ReferenceIdeal Cert.ReferenceIdeal.Read Idealize.ShloMosaic Idealize.ShloMosaic.ValueIdx Cert.GruCell

variable (x0 : FVec Ideal S100000x128 .f32) (x1 : FVec Ideal S200000x128 .f32) (x2 x3 : FVec Ideal S384x128 .f32)
  (x4 x5 : FVec Ideal S384 .f32) (x6 : IVec S100000 32)

/-- The message rows against the input weights, plus the input bias: entry `(p, j)` of `x @ W_ihᵀ + b_ih`. -/
theorem gi_apply (p : Fin 100000) (j : Fin 384) :
    val_main_v11 (F := Ideal) x0 x2 x4 (ix2 p j)
      = pre (fun k => x0 (ix2 p k)) (fun j k => x2 (ix2 j k)) (fun j => x4 (ix1 j)) j := by
  have eb : idx_main_v9 (idx_main_v10 (ix2 p j)) = ix1 j := funext fun a => by match a with | ⟨0, _⟩ => rfl
  have el : ∀ k : Fin 128, lidx_main_v8 (ix2 p j) k = ix2 p k := fun k => funext fun a => by
    match a with | ⟨0, _⟩ => rfl | ⟨1, _⟩ => rfl
  have er : ∀ k : Fin 128, idx_main_v7 (ridx_main_v8 (ix2 p j) k) = ix2 j k := fun k => funext fun a => by
    match a with | ⟨0, _⟩ => rfl | ⟨1, _⟩ => rfl
  rw [val_main_v11_apply, val_main_v8_apply, val_main_v10_apply, val_main_v9_apply]
  simp only [val_main_v7_apply, eb, el, er, Ideal.addf_def]
  unfold pre
  rfl

/-- The gathered state rows against the hidden weights, plus the hidden bias: entry `(p, j)` of `h @ W_hhᵀ + b_hh`. -/
theorem gh_apply (p : Fin 100000) (j : Fin 384) :
    val_main_v16 (F := Ideal) x1 x3 x5 x6 (ix2 p j)
      = pre (fun k => val_main_v6 (F := Ideal) x1 x6 (ix2 p k)) (fun j k => x3 (ix2 j k)) (fun j => x5 (ix1 j)) j := by
  have eb : idx_main_v14 (idx_main_v15 (ix2 p j)) = ix1 j := funext fun a => by match a with | ⟨0, _⟩ => rfl
  have el : ∀ k : Fin 128, lidx_main_v13 (ix2 p j) k = ix2 p k := fun k => funext fun a => by
    match a with | ⟨0, _⟩ => rfl | ⟨1, _⟩ => rfl
  have er : ∀ k : Fin 128, idx_main_v12 (ridx_main_v13 (ix2 p j) k) = ix2 j k := fun k => funext fun a => by
    match a with | ⟨0, _⟩ => rfl | ⟨1, _⟩ => rfl
  rw [val_main_v16_apply, val_main_v13_apply, val_main_v15_apply, val_main_v14_apply]
  simp only [val_main_v12_apply, eb, el, er, Ideal.addf_def]
  unfold pre
  rfl

/-- The reference's update array is the cell of the messages and the gathered state. -/
theorem update_eq :
    val_main_v44 (F := Ideal) x0 x1 x2 x3 x4 x5 x6 = cell x0 (val_main_v6 (F := Ideal) x1 x6) x2 x3 x4 x5 := by
  funext i
  obtain ⟨p, q, rfl⟩ : ∃ (p : Fin 100000) (q : Fin 128), i = ix2 p q := ⟨i 0, i 1, eq_ix2 i⟩
  have sR : idx_main_v17 (ix2 p q) = ix2 p (colR q) := funext fun a => by match a with | ⟨0, _⟩ => rfl | ⟨1, _⟩ => rfl
  have sZ : idx_main_v18 (ix2 p q) = ix2 p (colZ q) := funext fun a => by match a with | ⟨0, _⟩ => rfl | ⟨1, _⟩ => rfl
  have sN : idx_main_v19 (ix2 p q) = ix2 p (colN q) := funext fun a => by match a with | ⟨0, _⟩ => rfl | ⟨1, _⟩ => rfl
  have tR : idx_main_v20 (ix2 p q) = ix2 p (colR q) := funext fun a => by match a with | ⟨0, _⟩ => rfl | ⟨1, _⟩ => rfl
  have tZ : idx_main_v21 (ix2 p q) = ix2 p (colZ q) := funext fun a => by match a with | ⟨0, _⟩ => rfl | ⟨1, _⟩ => rfl
  have tN : idx_main_v22 (ix2 p q) = ix2 p (colN q) := funext fun a => by match a with | ⟨0, _⟩ => rfl | ⟨1, _⟩ => rfl
  simp only [val_main_v44_apply, val_main_v43_apply, val_main_v42_apply, val_main_v41_apply, val_main_v40_apply,
    val_main_cst_4_apply, val_main_v39_apply, val_main_v38_apply, val_main_v37_apply, val_main_v36_apply,
    val_main_v35_apply, val_main_cst_3_apply, val_main_v34_apply, val_main_v33_apply, val_main_cst_2_apply,
    val_main_v32_apply, val_main_v31_apply, val_main_v30_apply, val_main_v29_apply, val_main_v28_apply,
    val_main_cst_1_apply, val_main_v27_apply, val_main_v26_apply, val_main_cst_apply, val_main_v25_apply,
    val_main_v24_apply, val_main_v23_apply, val_main_v22_apply, val_main_v21_apply, val_main_v20_apply,
    val_main_v19_apply, val_main_v18_apply, val_main_v17_apply, sR, sZ, sN, tR, tZ, tN, gi_apply, gh_apply,
    Ideal.addf_def, Ideal.subf_def, Ideal.mulf_def, Ideal.hostDivf_def, Ideal.hostNegf_def, Ideal.negf_def,
    Ideal.hostUnary_exp_def, Ideal.hostUnary_tanh_def, Ideal.ofBits_def, logistic_eq_div]
  rw [Ideal.ofBits_one_f32]
  rfl

end Cert.ReferenceIdeal.Cell

end
-- ==== Proof.KernelBlocks.lean ====
/-
  What the kernel's region finds in each window's array, and each window's block at a grid point as rows of that array.

  The host lines before the region gather the state rows at the wrapped indices, transpose the two weight matrices
  and reshape the two bias vectors to one row; the messages are the first argument untouched. The grid has 50 points;
  point `t` stages rows `2000·t … 2000·t + 1999` of the messages and of the gathered state, and every point stages the
  whole transposed weights and bias rows.
-/
import proofs.«106858_j19499151524025_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The row indices as the gather and the scatter take them: a negative index has the row count 200000 added
    (jnp's wrap), and the vector is laid out as a column. -/
def wrapIdx (x6 : IVec S100000 32) : IVec S100000x1 32 :=
  broadcastInDim S100000x1 ![0] bcast_S100000_S100000x1_0
    (select (cmpi .slt x6 (broadcastInDim S100000 ![] bcast_S_S100000 (constantI S_ 32 0#32)))
      (addi x6 (broadcastInDim S100000 ![] bcast_S_S100000 (constantI S_ 32 200000#32))) x6)

/-- The state rows the region finds: the memory gathered at the wrapped indices. -/
theorem V_state (c : Dev nD) :
    (V m c main_v6 : S100000x128.Idx → EReal)
      = Host.gather gather_S200000x128_S100000x1_S100000x128_1_0_n_n_0_1_1128 (m ((c : Thread nD τ).loc main_arg1))
          (wrapIdx (m ((c : Thread nD τ).loc main_arg6))) := by
  show StableHlo.after hostOps0 (fun b => m (c, b)) (Proc.devRef .tc main_v6) = _
  after_results <;> rfl

/-- The input weights the region finds: the argument transposed. -/
theorem V_wih (c : Dev nD) :
    (V m c main_v7 : S128x384.Idx → EReal)
      = transpose S128x384 [1, 0] (m ((c : Thread nD τ).loc main_arg2)) transposes_S384x128_S128x384_1_0 := by
  show StableHlo.after hostOps0 (fun b => m (c, b)) (Proc.devRef .tc main_v7) = _
  after_results <;> rfl

/-- The hidden weights the region finds: the argument transposed. -/
theorem V_whh (c : Dev nD) :
    (V m c main_v8 : S128x384.Idx → EReal)
      = transpose S128x384 [1, 0] (m ((c : Thread nD τ).loc main_arg3)) transposes_S384x128_S128x384_1_0 := by
  show StableHlo.after hostOps0 (fun b => m (c, b)) (Proc.devRef .tc main_v8) = _
  after_results <;> rfl

/-- The input bias the region finds: the argument as one row. -/
theorem V_bih (c : Dev nD) :
    (V m c main_v9 : S1x384.Idx → EReal)
      = shapeCast S1x384 (m ((c : Thread nD τ).loc main_arg4)) shapeCasts_S384_S1x384 := by
  show StableHlo.after hostOps0 (fun b => m (c, b)) (Proc.devRef .tc main_v9) = _
  after_results <;> rfl

/-- The hidden bias the region finds: the argument as one row. -/
theorem V_bhh (c : Dev nD) :
    (V m c main_v10 : S1x384.Idx → EReal)
      = shapeCast S1x384 (m ((c : Thread nD τ).loc main_arg5)) shapeCasts_S384_S1x384 := by
  show StableHlo.after hostOps0 (fun b => m (c, b)) (Proc.devRef .tc main_v10) = _
  after_results <;> rfl

/-- A transposed weight matrix read at `(k, j)` is the matrix at `(j, k)`. -/
theorem transpose_at (x : FVec Ideal S384x128 .f32) (k : Fin 128) (j : Fin 384) :
    transpose S128x384 [1, 0] x transposes_S384x128_S128x384_1_0 (ix2 k j) = x (ix2 j k) :=
  transpose_apply [1, 0] x transposes_S384x128_S128x384_1_0 (ix2 k j) (ix2 j k) (fun b => match b with
    | ⟨0, _⟩ => rfl
    | ⟨1, _⟩ => rfl)

/-- A bias vector as one row read at `(0, j)` is the vector at `j`. -/
theorem row_at (x : FVec Ideal S384 .f32) (j : Fin 384) :
    shapeCast S1x384 x shapeCasts_S384_S1x384 (ix2 (0 : Fin 1) j) = x (ix1 j) :=
  shapeCast_apply x shapeCasts_S384_S1x384 (ix2 (0 : Fin 1) j) (ix1 j) (by
    rw [Shape.rowMajor_val_one, Shape.rowMajor_val_two]
    show j.val = 0 * 384 + j.val
    omega)

/-- The windows' block indices at a point, decided over the grid: the row-blocked windows are at block `t`, the others
    at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The message window's block at point `t` holds rows `2000·t + r` of the messages. -/
theorem msg_block (c : Dev nD) (t : Fin cfg0.N) (x : S2000x128.Idx) (k : S100000x128.Idx)
    (hk0 : (k 0).val = t.val * 2000 + (x 0).val) (hk1 : (k 1).val = (x 1).val) :
    (iblk m c 0 t : Vec Ideal S2000x128 .f32) x = (V m c main_arg0 : S100000x128.Idx → EReal) k := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The state window's block at point `t` holds rows `2000·t + r` of the gathered state. -/
theorem state_block (c : Dev nD) (t : Fin cfg0.N) (x : S2000x128.Idx) (k : S100000x128.Idx)
    (hk0 : (k 0).val = t.val * 2000 + (x 0).val) (hk1 : (k 1).val = (x 1).val) :
    (iblk m c 1 t : Vec Ideal S2000x128 .f32) x = (V m c main_v6 : S100000x128.Idx → EReal) k := by
  obtain ⟨-, -, e0, e1, -⟩ := idx_facts t
  unfold iblk
  rw [View.read_apply]
  show V m c main_v6 _ = V m c main_v6 _
  refine congrArg (V m c main_v6) (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 128 + 1 * (x 1).val = (k 1).val; rw [e1, hk1]; omega

/-- The input-weight window's block is the whole transposed matrix at every point. -/
theorem wih_block (c : Dev nD) (t : Fin cfg0.N) (x : S128x384.Idx) :
    (iblk m c 2 t : Vec Ideal S128x384 .f32) x = (V m c main_v7 : S128x384.Idx → EReal) x := by
  obtain ⟨-, -, -, -, e0, e1, -⟩ := idx_facts t
  unfold iblk
  rw [View.read_apply]
  show V m c main_v7 _ = V m c main_v7 _
  refine congrArg (V m c main_v7) (funext fun a => Fin.ext ?_)
  match a with
  | ⟨0, _⟩ => show win0_2.index t (0 : Fin 2) * 128 + 1 * (x 0).val = (x 0).val; rw [e0]; omega
  | ⟨1, _⟩ => show win0_2.index t (1 : Fin 2) * 384 + 1 * (x 1).val = (x 1).val; rw [e1]; omega

/-- The hidden-weight window's block is the whole transposed matrix at every point. -/
theorem whh_block (c : Dev nD) (t : Fin cfg0.N) (x : S128x384.Idx) :
    (iblk m c 3 t : Vec Ideal S128x384 .f32) x = (V m c main_v8 : S128x384.Idx → EReal) x := by
  obtain ⟨-, -, -, -, -, -, e0, e1, -⟩ := idx_facts t
  unfold iblk
  rw [View.read_apply]
  show V m c main_v8 _ = V m c main_v8 _
  refine congrArg (V m c main_v8) (funext fun a => Fin.ext ?_)
  match a with
  | ⟨0, _⟩ => show win0_3.index t (0 : Fin 2) * 128 + 1 * (x 0).val = (x 0).val; rw [e0]; omega
  | ⟨1, _⟩ => show win0_3.index t (1 : Fin 2) * 384 + 1 * (x 1).val = (x 1).val; rw [e1]; omega

/-- The input-bias window's block is the whole bias row at every point. -/
theorem bih_block (c : Dev nD) (t : Fin cfg0.N) (x : S1x384.Idx) :
    (iblk m c 4 t : Vec Ideal S1x384 .f32) x = (V m c main_v9 : S1x384.Idx → EReal) x := by
  obtain ⟨-, -, -, -, -, -, -, -, e0, e1, -⟩ := idx_facts t
  unfold iblk
  rw [View.read_apply]
  show V m c main_v9 _ = V m c main_v9 _
  refine congrArg (V m c main_v9) (funext fun a => Fin.ext ?_)
  match a with
  | ⟨0, _⟩ => show win0_4.index t (0 : Fin 2) * 1 + 1 * (x 0).val = (x 0).val; rw [e0]; omega
  | ⟨1, _⟩ => show win0_4.index t (1 : Fin 2) * 384 + 1 * (x 1).val = (x 1).val; rw [e1]; omega

/-- The hidden-bias window's block is the whole bias row at every point. -/
theorem bhh_block (c : Dev nD) (t : Fin cfg0.N) (x : S1x384.Idx) :
    (iblk m c 5 t : Vec Ideal S1x384 .f32) x = (V m c main_v10 : S1x384.Idx → EReal) x := by
  obtain ⟨-, -, -, -, -, -, -, -, -, -, e0, e1, -⟩ := idx_facts t
  unfold iblk
  rw [View.read_apply]
  show V m c main_v10 _ = V m c main_v10 _
  refine congrArg (V m c main_v10) (funext fun a => Fin.ext ?_)
  match a with
  | ⟨0, _⟩ => show win0_5.index t (0 : Fin 2) * 1 + 1 * (x 0).val = (x 0).val; rw [e0]; omega
  | ⟨1, _⟩ => show win0_5.index t (1 : Fin 2) * 384 + 1 * (x 1).val = (x 1).val; rw [e1]; omega

end Cert.KernelIdeal.Blocks

end
-- ==== Proof.KernelCell.lean ====
/-
  The kernel body's one store, read at an entry of its block: it is the GRU cell of the block's message row and state row.

  The body multiplies the 2000-row message block and state block with the staged weights [128, 384] (the transposed
  weight matrices) into a zero accumulator, adds the staged biases [1, 384] broadcast along the rows, cuts the three
  gates out of the 384 columns and combines them. A change of float format is the identity on extended reals, a shape cast
  to the same shape is the identity, a matrix product into zero is the sum over the contracted axis, and a [1, 384] row
  broadcast to [2000, 384] reads the row at the column.
-/
import proofs.«106858_j19499151524025_2_alg».proof.Proof.Gen.KernelIdeal.Skeleton
import proofs.«106858_j19499151524025_2_alg».proof.Proof.GruCell
import Idealize.ShloMosaic.Lib.Pipeline.Value
import Idealize.ShloMosaic.Lib.ValueIdx
import Idealize.ShloMosaic.PureOps.Ideal.Laws

noncomputable section

open scoped BigOperators

namespace Cert.KernelIdeal.Cell

open Cert.KernelIdeal Cert.KernelIdeal.Gen Idealize.ShloMosaic Idealize.ShloMosaic.ValueIdx Cert.GruCell

/-- A block's 384 gate pre-activations per row: the block against the staged weights, plus the staged bias row. -/
def preBlock (v : FVec Ideal S2000x128 .f32) (w : FVec Ideal S128x384 .f32) (b : FVec Ideal S1x384 .f32) : FVec Ideal S2000x384 .f32 :=
  addf (matmul dot_S2000x128_S128x384_S2000x384_1_0_0_1_n_n none (truncf .bf16 v bitsLt_bf16_f32)
      (truncf .bf16 (shapeCast S128x384 w shapeCasts_S128x384_S128x384) bitsLt_bf16_f32) (constant S2000x384 .f32 0x00000000#32))
    (broadcastTo S2000x384 (shapeCast S1x384 b shapeCasts_S1x384_S1x384) broadcasts_S1x384_S2000x384)

/-- The product's left operand is read at the output's row … -/
theorem lhs_row (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl
/-- … and its right operand at the output's column. -/
theorem rhs_col (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- Entry `(r, j)` of the pre-activations: row `r` of the block against column `j` of the staged weights, plus the
    bias at `j`. -/
theorem preBlock_apply (v : FVec Ideal S2000x128 .f32) (w : FVec Ideal S128x384 .f32) (b : FVec Ideal S1x384 .f32)
    (r : Fin 2000) (j : Fin 384) :
    preBlock v w b (ix2 r j)
      = pre (fun k => v (ix2 r k)) (fun j k => w (ix2 k j)) (fun j => b (ix2 (0 : Fin 1) j)) j := by
  unfold preBlock pre
  rw [shapeCast_self, shapeCast_self, addf_apply]
  simp only [matmul]
  rw [Ideal.matmul_constant_zero_apply,
    ← Equiv.sum_comp (contrEquiv1 dot_S2000x128_S128x384_S2000x384_1_0_0_1_n_n 128 rfl rfl).symm,
    broadcastTo_apply b broadcasts_S1x384_S2000x384 (ix2 r j) (ix2 (0 : Fin 1) j) (fun a => by
      match a with
      | ⟨0, _⟩ => show 0 = if (1 : Nat) = 1 then 0 else r.val; rw [if_pos rfl]
      | ⟨1, _⟩ => show j.val = if (384 : Nat) = 1 then 0 else j.val; rw [if_neg (by decide)])]
  congr 1
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 r j)
      ((contrEquiv1 dot_S2000x128_S128x384_S2000x384_1_0_0_1_n_n 128 rfl rfl).symm k) = ix2 r k :=
    funext fun a => Fin.ext (by
      match a with
      | ⟨0, _⟩ => exact lhs_row _ _
      | ⟨1, _⟩ => exact (dot_S2000x128_S128x384_S2000x384_1_0_0_1_n_n.lhsIdx_val_of_single rfl _ _).trans hk)
  have er : dot_S2000x128_S128x384_S2000x384_1_0_0_1_n_n.rhsIdx (ix2 r j)
      ((contrEquiv1 dot_S2000x128_S128x384_S2000x384_1_0_0_1_n_n 128 rfl rfl).symm k) = ix2 k j :=
    funext fun a => Fin.ext (by
      match a with
      | ⟨0, _⟩ => exact (dot_S2000x128_S128x384_S2000x384_1_0_0_1_n_n.rhsIdx_val_of_single rfl _ _).trans hk
      | ⟨1, _⟩ => exact rhs_col _ _)
  rw [el, er]
  rfl

/-- The reset gate's columns of the 384: columns `0 … 127`. -/
theorem sliceR_apply (X : FVec Ideal S2000x384 .f32) (r : Fin 2000) (q : Fin 128) :
    extractStridedSlice S2000x128 ![0, 0] X slices_S2000x384_o0_0_S2000x128 (ix2 r q) = X (ix2 r (colR q)) :=
  extractStridedSlice_apply ![0, 0] X slices_S2000x384_o0_0_S2000x128 (ix2 r q) (ix2 r (colR q)) (fun a => by
    match a with
    | ⟨0, _⟩ => show r.val = 0 + r.val; omega
    | ⟨1, _⟩ => show q.val = 0 + q.val; omega)

/-- The update gate's columns: `128 … 255`. -/
theorem sliceZ_apply (X : FVec Ideal S2000x384 .f32) (r : Fin 2000) (q : Fin 128) :
    extractStridedSlice S2000x128 ![0, 128] X slices_S2000x384_o0_128_S2000x128 (ix2 r q) = X (ix2 r (colZ q)) :=
  extractStridedSlice_apply ![0, 128] X slices_S2000x384_o0_128_S2000x128 (ix2 r q) (ix2 r (colZ q)) (fun a => by
    match a with
    | ⟨0, _⟩ => show r.val = 0 + r.val; omega
    | ⟨1, _⟩ => show 128 + q.val = 128 + q.val; rfl)

/-- The candidate gate's columns: `256 … 383`. -/
theorem sliceN_apply (X : FVec Ideal S2000x384 .f32) (r : Fin 2000) (q : Fin 128) :
    extractStridedSlice S2000x128 ![0, 256] X slices_S2000x384_o0_256_S2000x128 (ix2 r q) = X (ix2 r (colN q)) :=
  extractStridedSlice_apply ![0, 256] X slices_S2000x384_o0_256_S2000x128 (ix2 r q) (ix2 r (colN q)) (fun a => by
    match a with
    | ⟨0, _⟩ => show r.val = 0 + r.val; omega
    | ⟨1, _⟩ => show 256 + q.val = 256 + q.val; rfl)

/-- The gates cut out of the two pre-activation arrays and combined with the state block: the body's arithmetic after
    the two matrix products. -/
def combine (gi gh : FVec Ideal S2000x384 .f32) (h : FVec Ideal S2000x128 .f32) : FVec Ideal S2000x128 .f32 :=
  addf
    (mulf
      (subf (broadcast S2000x128 (Scalar.ofBits (F := Ideal) .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      h)

/-- The body's payload is the combination of the two blocks' pre-activations with the state block. -/
theorem pay_eq (v0 v2 : Vec Ideal S2000x128 .f32) (v4 v7 : Vec Ideal S128x384 .f32) (v11 v17 : Vec Ideal S1x384 .f32) :
    k0_pay1 (F := Ideal) v0 v2 v4 v7 v11 v17
      = combine (preBlock v0 v4 v11) (preBlock (shapeCast S2000x128 v2 shapeCasts_S2000x128_S2000x128) v7 v17)
          (shapeCast S2000x128 v2 shapeCasts_S2000x128_S2000x128) := rfl

/-- The combination read at entry `(r, q)`. -/
theorem combine_apply (gi gh : FVec Ideal S2000x384 .f32) (h : FVec Ideal S2000x128 .f32) (r : Fin 2000) (q : Fin 128) :
    combine gi gh h (ix2 r q)
      = (1 - Ideal.logistic (gi (ix2 r (colZ q)) + gh (ix2 r (colZ q))))
          * Ideal.tanh (gi (ix2 r (colN q)) + Ideal.logistic (gi (ix2 r (colR q)) + gh (ix2 r (colR q))) * gh (ix2 r (colN q)))
        + Ideal.logistic (gi (ix2 r (colZ q)) + gh (ix2 r (colZ q))) * h (ix2 r q) := by
  unfold combine
  simp only [addf_apply, mulf_apply, subf_apply, broadcast_apply, logistic, tanh, Ideal.logistic_def, Ideal.tanh_def,
    sliceR_apply, sliceZ_apply, sliceN_apply]
  rw [show Scalar.ofBits (F := Ideal) .f32 0x3F800000#32 = (1 : EReal) from Ideal.ofBits_one_f32]

/-- THE PAYLOAD AT AN ENTRY: the cell of row `r` of the message block and of the state block, over the staged weights
    read transposed and the staged bias rows. -/
theorem pay_apply (v0 v2 : Vec Ideal S2000x128 .f32) (v4 v7 : Vec Ideal S128x384 .f32) (v11 v17 : Vec Ideal S1x384 .f32)
    (r : Fin 2000) (q : Fin 128) :
    k0_pay1 (F := Ideal) v0 v2 v4 v7 v11 v17 (ix2 r q)
      = cellRow (fun k => v0 (ix2 r k)) (fun k => v2 (ix2 r k)) (fun j k => v4 (ix2 k j)) (fun j k => v7 (ix2 k j))
          (fun j => v11 (ix2 (0 : Fin 1) j)) (fun j => v17 (ix2 (0 : Fin 1) j)) q := by
  rw [pay_eq, combine_apply, shapeCast_self]
  simp only [preBlock_apply]
  rfl

end Cert.KernelIdeal.Cell

end
-- ==== Proof.KernelArray.lean ====
/-
  The array the kernel's region leaves: the GRU cell of the messages and the gathered state, over all 100000 rows.

  Point `t` of the grid writes back a 2000-row block whose entry `(r, q)` is the body's payload there — the cell of
  row `r` of the staged message and state blocks — and those are rows `2000·t + r` of the arrays; the weights are staged
  transposed and read transposed again, the biases staged as one row. The 50 blocks tile the rows, so every entry of
  the result array is some point's.
-/
import proofs.«106858_j19499151524025_2_alg».proof.Proof.KernelBlocks
import proofs.«106858_j19499151524025_2_alg».proof.Proof.KernelCell

noncomputable section

namespace Cert.KernelIdeal.Array

open Cert.KernelIdeal Cert.KernelIdeal.Gen Idealize.ShloMosaic Idealize.ShloMosaic.TcCoe Idealize.SL.Sem
open Idealize.ShloMosaic.ValueIdx Cert.KernelIdeal.Blocks Cert.KernelIdeal.Cell Cert.GruCell
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The new state rows: the cell of the messages and of the memory gathered at the wrapped indices. -/
def newState (c : Dev nD) : S100000x128.Idx → EReal :=
  cell (m ((c : Thread nD τ).loc main_arg0))
    (Host.gather gather_S200000x128_S100000x1_S100000x128_1_0_n_n_0_1_1128 (m ((c : Thread nD τ).loc main_arg1))
      (wrapIdx (m ((c : Thread nD τ).loc main_arg6))))
    (m ((c : Thread nD τ).loc main_arg2)) (m ((c : Thread nD τ).loc main_arg3))
    (m ((c : Thread nD τ).loc main_arg4)) (m ((c : Thread nD τ).loc main_arg5))

/-- The payload of point `t` at entry `(r, q)` of its block is the new state at row `2000·t + r`, feature `q`. -/
theorem entry_eq (c : Dev nD) (t : Fin cfg0.N) (r : Fin 2000) (q : Fin 128) (p : Fin 100000)
    (hp : p.val = t.val * 2000 + r.val) :
    k0_pay1 (F := Ideal) (iblk m c 0 t) (iblk m c 1 t) (iblk m c 2 t) (iblk m c 3 t) (iblk m c 4 t) (iblk m c 5 t) (ix2 r q)
      = newState m c (ix2 p q) := by
  refine (pay_apply (iblk m c 0 t) (iblk m c 1 t) (iblk m c 2 t) (iblk m c 3 t) (iblk m c 4 t) (iblk m c 5 t) r q).trans ?_
  have e0 : (fun k : Fin 128 => (iblk m c 0 t : Vec Ideal S2000x128 .f32) (ix2 r k))
      = fun k => m ((c : Thread nD τ).loc main_arg0) (ix2 p k) :=
    funext fun k => (msg_block m c t (ix2 r k) (ix2 p k) hp rfl).trans (congrFun (V_main_arg0 m c) _)
  have e1 : (fun k : Fin 128 => (iblk m c 1 t : Vec Ideal S2000x128 .f32) (ix2 r k))
      = fun k => Host.gather gather_S200000x128_S100000x1_S100000x128_1_0_n_n_0_1_1128 (m ((c : Thread nD τ).loc main_arg1))
          (wrapIdx (m ((c : Thread nD τ).loc main_arg6))) (ix2 p k) :=
    funext fun k => (state_block m c t (ix2 r k) (ix2 p k) hp rfl).trans (congrFun (V_state m c) _)
  have e2 : (fun (j : Fin 384) (k : Fin 128) => (iblk m c 2 t : Vec Ideal S128x384 .f32) (ix2 k j))
      = fun j k => m ((c : Thread nD τ).loc main_arg2) (ix2 j k) :=
    funext fun j => funext fun k => (wih_block m c t (ix2 k j)).trans ((congrFun (V_wih m c) _).trans (transpose_at _ k j))
  have e3 : (fun (j : Fin 384) (k : Fin 128) => (iblk m c 3 t : Vec Ideal S128x384 .f32) (ix2 k j))
      = fun j k => m ((c : Thread nD τ).loc main_arg3) (ix2 j k) :=
    funext fun j => funext fun k => (whh_block m c t (ix2 k j)).trans ((congrFun (V_whh m c) _).trans (transpose_at _ k j))
  have e4 : (fun j : Fin 384 => (iblk m c 4 t : Vec Ideal S1x384 .f32) (ix2 (0 : Fin 1) j))
      = fun j => m ((c : Thread nD τ).loc main_arg4) (ix1 j) :=
    funext fun j => (bih_block m c t (ix2 (0 : Fin 1) j)).trans ((congrFun (V_bih m c) _).trans (row_at _ j))
  have e5 : (fun j : Fin 384 => (iblk m c 5 t : Vec Ideal S1x384 .f32) (ix2 (0 : Fin 1) j))
      = fun j => m ((c : Thread nD τ).loc main_arg5) (ix1 j) :=
    funext fun j => (bhh_block m c t (ix2 (0 : Fin 1) j)).trans ((congrFun (V_bhh m c) _).trans (row_at _ j))
  rw [e0, e1, e2, e3, e4, e5]
  rfl

/-- The same for any entry `y` of the block and any index `i` of the array with `i = (2000·t + y₀, y₁)`. -/
theorem entry_eq' (c : Dev nD) (t : Fin cfg0.N) (y : S2000x128.Idx) (i : S100000x128.Idx)
    (hi0 : (i 0).val = t.val * 2000 + (y 0).val) (hi1 : (i 1).val = (y 1).val) :
    k0_pay1 (F := Ideal) (iblk m c 0 t) (iblk m c 1 t) (iblk m c 2 t) (iblk m c 3 t) (iblk m c 4 t) (iblk m c 5 t) y
      = newState m c i := by
  obtain ⟨r, q, rfl⟩ : ∃ (r : Fin 2000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q' = q := Fin.ext hi1
  exact entry_eq m c t r q' p hi0

/-- WHAT POINT `t` WRITES BACK is block `t` of the new state. -/
theorem flushed_eq (c : Dev nD) (t : Fin cfg0.N) :
    (dats m 0 c).flushed 6 t = ((cfg0.win 6).blk t).view.read (Elt Ideal) (newState m c) := by
  show (cfg0.win 6).cut (grid0.coords t) ((dats m 0 c).after 6 t) = _
  rw [after0_6]
  unfold out0_6
  rw [View.canon_unit_zero hz]
  simp only [View.ld_unit_zero (S := S2000x128) hz, View.ld_unit_zero (S := S128x384) hz, View.ld_unit_zero (S := S1x384) hz]
  obtain ⟨-, -, -, -, -, -, -, -, -, -, -, -, e0, e1⟩ := idx_facts t
  funext y
  show k0_pay1 (F := Ideal) (iblk m c 0 t) (iblk m c 1 t) (iblk m c 2 t) (iblk m c 3 t) (iblk m c 4 t) (iblk m c 5 t) y
    = newState m c (((cfg0.win 6).blk t).view.emb y)
  refine entry_eq' m c t y (((cfg0.win 6).blk t).view.emb y) ?_ ?_
  · show win0_6.index t (0 : Fin 2) * 2000 + 1 * (y 0).val = t.val * 2000 + (y 0).val
    rw [e0]; omega
  · show win0_6.index t (1 : Fin 2) * 128 + 1 * (y 1).val = (y 1).val
    rw [e1]; omega

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v11).slice (win0_6.rect t)).set ↔ _
  rw [View.set_slice_whole, Rect.mem_set_unit]
  exact Iff.rfl

/-- Every entry of the result array is in the block of the point its row falls in: row `p` in point `p / 2000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 2000 < grid0.N := lt_of_lt_of_eq (by omega : (i 0).val / 2000 < 50) N_0.symm
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]; omega

/-- THE ARRAY AFTER THE REGION: the new state rows. -/
theorem final (c : Dev nD) : (dats m 0 c).arrAt 6 cfg0.N = newState m c :=
  (dats m 0 c).arrAt_eq_of_cover 6 (newState m c) (fun t _ => flushed_eq m c t) (cover)

end Cert.KernelIdeal.Array

end
-- ==== Proof.KernelResult.lean ====
/-
  The kernel program's result: the memory of ones with the new state rows scattered in at the wrapped indices.

  After the region the host lines build the all-ones memory [200000, 128], wrap the indices once more and scatter
  the region's result array into it; the arguments are left as they were.
-/
import proofs.«106858_j19499151524025_2_alg».proof.Proof.KernelArray

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.KernelIdeal.Blocks Cert.KernelIdeal.Array
open Idealize.ShloMosaic.Pipeline (Dat)

variable (m : (ℓ : Loc nD τ sig) → Buf (Elt Ideal) ℓ) (ρ : Dev nD → PrngReg)

/-- The memory after the update: ones everywhere, except that row `idx p` (wrapped) holds new state row `p`. -/
def memoryAfter (c : Dev nD) : S200000x128.Idx → EReal :=
  Host.scatter scatter_S200000x128_S100000x1_S100000x128_1_0_0_1 (fun _ b => b)
    (broadcastInDim S200000x128 ![] bcast_S_S200000x128 (constant (F := Ideal) S_ .f32 0x3F800000#32))
    (wrapIdx (m ((c : Thread nD τ).loc main_arg6))) (newState m c)

/-- The host lines after the region leave `memoryAfter` in the result buffer. -/
theorem tail_eq (c : Dev nD) :
    (Pipeline.afterTail₀ cfgs (dats m) 0 (V0 m) [hostOps1] c main_v19 : S200000x128.Idx → EReal) = memoryAfter m c := by
  unfold Pipeline.afterTail₀
  show StableHlo.after hostOps1 _ (Proc.devRef .tc main_v19) = _
  after_results
  have h6 : Pipeline.withArrays (cfgs 0).spec c (V0 m c) (fun w => (dats m 0 c).arrAt w (cfgs 0).N)
      (Proc.devRef .tc main_arg6) = m ((c : Thread nD τ).loc main_arg6) :=
    (Pipeline.withArrays_of_ne _ c (V0 m c) _ main_arg6
      (by exact (by decide : ∀ w, Pipeline.arrRef spec0 w ≠ main_arg6))).trans (V_main_arg6 m c)
  have h11 : Pipeline.withArrays (cfgs 0).spec c (V0 m c) (fun w => (dats m 0 c).arrAt w (cfgs 0).N)
      (Proc.devRef .tc main_v11) = newState m c :=
    (Pipeline.withArrays_arr spec0 launch0.win.arr_inj c _ _ 6).trans (final m c)
  rw [h6, h11]
  rfl

/-- THE KERNEL PROGRAM'S RUN, READ: every weakly fair execution ends with the result buffer at `memoryAfter` and the
    arguments as they were. -/
theorem run : θ_run defs (onTc (τ := τ) (main (F := Ideal))) ⟨m, fun _ => 0, ρ⟩ fun r => ∀ c : Dev nD,
      r.2.mem ((c : Thread nD τ).loc main_v19) = memoryAfter m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.Bridge.lean ====
/-
  The two programs' results are one function of the arguments.

  Both end with the same host lines — the memory of ones, the indices wrapped, a scatter of the update rows — and the
  update rows are on both sides the GRU cell of the messages and of the memory gathered at the wrapped indices: the
  reference's by its operations read one at a time, the kernel's by its blocks. So the reference's result term is the
  kernel's, the dimension records of the two printed programs being the same numbers.
-/
import proofs.«106858_j19499151524025_2_alg».proof.Proof.RefCell
import proofs.«106858_j19499151524025_2_alg».proof.Proof.KernelResult

noncomputable section

namespace Cert.Bridge

open Idealize.ShloMosaic Idealize.ShloMosaic.TcCoe Idealize.SL.Sem Cert.GruCell

/-- The reference's result stage, of any argument arrays, is the all-ones memory with the cell's rows scattered in at the
    wrapped indices — the kernel program's result, spelled with the kernel program's dimension records. -/
theorem result_eq (x0 : FVec Ideal Cert.KernelIdeal.S100000x128 .f32) (x1 : FVec Ideal Cert.KernelIdeal.S200000x128 .f32)
    (x2 x3 : FVec Ideal Cert.KernelIdeal.S384x128 .f32) (x4 x5 : FVec Ideal Cert.KernelIdeal.S384 .f32)
    (x6 : IVec Cert.KernelIdeal.S100000 32) :
    Cert.ReferenceIdeal.Read.val_main_v52 (F := Ideal) x0 x1 x2 x3 x4 x5 x6
      = Host.scatter Cert.KernelIdeal.scatter_S200000x128_S100000x1_S100000x128_1_0_0_1 (fun _ b => b)
          (broadcastInDim Cert.KernelIdeal.S200000x128 ![] Cert.KernelIdeal.Gen.bcast_S_S200000x128
            (constant (F := Ideal) Cert.KernelIdeal.S_ .f32 0x3F800000#32))
          (Cert.KernelIdeal.Blocks.wrapIdx x6)
          (cell x0 (Host.gather Cert.KernelIdeal.gather_S200000x128_S100000x1_S100000x128_1_0_n_n_0_1_1128 x1
            (Cert.KernelIdeal.Blocks.wrapIdx x6)) x2 x3 x4 x5) := by
  unfold Cert.ReferenceIdeal.Read.val_main_v52
  rw [Cert.ReferenceIdeal.Cell.update_eq]
  rfl

end Cert.Bridge

end
-- ==== Proof.lean ====
/-
  The certificate of a GRU memory update: a Pallas kernel computing the GRU cell on 2000-row blocks of the messages and of
  the gathered memory rows, between a host gather and a host scatter, against the same update written in jnp.

  On the extended reals both programs compute, for every message row `p`, the cell
      r = σ(gi_r + gh_r),  z = σ(gi_z + gh_z),  n = tanh(gi_n + r · gh_n),  h' = (1 − z) · n + z · h
  of the message row and the memory row at the wrapped index, with `gi = x · W_ihᵀ + b_ih`, `gh = h · W_hhᵀ + b_hh`, and
  scatter the rows `h'` into a memory of ones. The kernel's changes of float format are the identity there, its matrix
  products into a zero accumulator are the reference's `dot_general`s (sums over the 128 contracted features), its
  logistic operation is the reference's `1 / (1 + e^(−x))`, and its 50 blocks tile the 100000 rows. No law of arithmetic
  beyond these readings is used, so the precondition (finite inputs) is never opened.

  The three frames are the generated ones (the reference's is its generated run with the result dropped); the
  idealization rewrote no operation, so `preserves` has nothing to state.
-/
import proofs.«106858_j19499151524025_2_alg».proof.Defs
import proofs.«106858_j19499151524025_2_alg».proof.Proof.Gen.Kernel
import proofs.«106858_j19499151524025_2_alg».proof.Proof.Gen.Kernel.Skeleton
import proofs.«106858_j19499151524025_2_alg».proof.Proof.Gen.Kernel.Launch
import proofs.«106858_j19499151524025_2_alg».proof.Proof.Gen.Kernel.Points
import proofs.«106858_j19499151524025_2_alg».proof.Proof.Gen.Kernel.Frame
import proofs.«106858_j19499151524025_2_alg».proof.Proof.Gen.KernelIdeal
import proofs.«106858_j19499151524025_2_alg».proof.Proof.Gen.KernelIdeal.Skeleton
import proofs.«106858_j19499151524025_2_alg».proof.Proof.Gen.KernelIdeal.Launch
import proofs.«106858_j19499151524025_2_alg».proof.Proof.Gen.KernelIdeal.Points
import proofs.«106858_j19499151524025_2_alg».proof.Proof.Gen.KernelIdeal.Frame
import proofs.«106858_j19499151524025_2_alg».proof.Proof.Gen.ReferenceIdeal
import proofs.«106858_j19499151524025_2_alg».proof.Proof.Gen.ReferenceIdeal.Run
import proofs.«106858_j19499151524025_2_alg».proof.Proof.Gen.ReferenceIdeal.Read
import proofs.«106858_j19499151524025_2_alg».proof.Proof.Gen.Pre_finite_inputs
import proofs.«106858_j19499151524025_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the memory of ones updated by the cell's rows. -/
theorem algebraic : Cert.algebraic_KernelIdeal_ReferenceIdeal := by
  intro m ρ m' ρ' _ hagree
  refine ⟨fun c => Cert.KernelIdeal.Result.memoryAfter m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v52_eq, a0, a1, a2, a3, a4, a5, a6]
  exact Cert.Bridge.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
